-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x1024x2048 .f32) (main_arg1 : FVec F S8x512x2048 .f32) (main_arg2 : FVec F S8x512x2048 .f32) (main_arg3 : FVec F S2048x2048 .f32) (main_arg4 : FVec F S2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S8x512x2048 .f32 := Host.absf main_arg2
  let main_cst_2 : FVec F S_ .f32 := constant S_ .f32 0x7F800000#32
  let main_v10 : FVec F S8x512x2048 .f32 := broadcastInDim S8x512x2048 ![] bcast_S_S8x512x2048 main_cst_2
  let main_v11 : IVec S8x512x2048 1 := cmpf .olt main_v9 main_v10
  let main_c_3 : IVec S_ 1 := constantI S_ 1 1#1
  let main_v12 : IVec S_ 1 := (fun x v => Host.reduce IntOp.andi x v reducesTo_S8x512x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S2048x1024 : Shape := ⟨2, ![2048, 1024]⟩
abbrev S2048x512 : Shape := ⟨2, ![2048, 512]⟩
abbrev S8x2048x2048 : Shape := ⟨3, ![8, 2048, 2048]⟩
abbrev S1x1024x2048 : Shape := ⟨3, ![1, 1024, 2048]⟩
abbrev S1x512x2048 : Shape := ⟨3, ![1, 512, 2048]⟩
abbrev S256x1024 : Shape := ⟨2, ![256, 1024]⟩
abbrev S256x512 : Shape := ⟨2, ![256, 512]⟩
abbrev S256 : Shape := ⟨1, ![256]⟩
abbrev S1x2048x256 : Shape := ⟨3, ![1, 2048, 256]⟩
abbrev S1024x2048 : Shape := ⟨2, ![1024, 2048]⟩
abbrev S512x2048 : Shape := ⟨2, ![512, 2048]⟩
abbrev S2048x256 : Shape := ⟨2, ![2048, 256]⟩
abbrev S1x256 : Shape := ⟨2, ![1, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x2048, .f32⟩
  | .hbm, ⟨1, _⟩ => ⟨S8x512x2048, .f32⟩
  | .hbm, ⟨2, _⟩ => ⟨S8x512x2048, .f32⟩
  | .hbm, ⟨3, _⟩ => ⟨S2048x2048, .f32⟩
  | .hbm, ⟨4, _⟩ => ⟨S2048, .f32⟩
  | .hbm, ⟨5, _⟩ => ⟨S2048x1024, .f32⟩
  | .hbm, ⟨6, _⟩ => ⟨S2048x1024, .bf16⟩
  | .hbm, ⟨7, _⟩ => ⟨S2048x512, .f32⟩
  | .hbm, ⟨8, _⟩ => ⟨S2048x512, .bf16⟩
  | .hbm, ⟨9, _⟩ => ⟨S2048x512, .f32⟩
  | .hbm, ⟨10, _⟩ => ⟨S2048x512, .bf16⟩
  | .hbm, ⟨11, _⟩ => ⟨S8x2048x2048, .f32⟩
  | .local _ .vmem, ⟨0, _⟩ => ⟨S1x1024x2048, .f32⟩
  | .local _ .vmem, ⟨1, _⟩ => ⟨S1x512x2048, .f32⟩
  | .local _ .vmem, ⟨2, _⟩ => ⟨S1x512x2048, .f32⟩
  | .local _ .vmem, ⟨3, _⟩ => ⟨S256x1024, .bf16⟩
  | .local _ .vmem, ⟨4, _⟩ => ⟨S256x1024, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256, .f32⟩
  | .local _ .vmem, ⟨10, _⟩ => ⟨S256, .f32⟩
  | .local _ .vmem, ⟨11, _⟩ => ⟨S1x2048x256, .f32⟩
  | .local _ .vmem, ⟨12, _⟩ => ⟨S1x2048x256, .f32⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S2048x2048_S2048x1024_0_0 : S2048x2048.Slices ![0, 0] S2048x1024
  bitsLt_bf16_f32 : FTy.bits .bf16 < FTy.bits .f32
  slices_S2048x2048_S2048x512_0_1024 : S2048x2048.Slices ![0, 1024] S2048x512
  slices_S2048x2048_S2048x512_0_1536 : S2048x2048.Slices ![0, 1536] S2048x512
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S1024x2048_S256x1024_S2048x256_0_1_1_0_n_n_wf : DotDims.WF S1024x2048 S256x1024 S2048x256 [0] [1] [1] [0] [] []
  dot_S512x2048_S256x512_S2048x256_0_1_1_0_n_n_wf : DotDims.WF S512x2048 S256x512 S2048x256 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x512x2048.size a
  hwx0_1 : ∀ i : grid0.Coords, EltTy.bits .f32 = 32 ∨ (Rect.block (s := S8x512x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x512x2048.size a
  hwx0_2 : ∀ i : grid0.Coords, EltTy.bits .f32 = 32 ∨ (Rect.block (s := S8x512x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x512.size a
  hwx0_4 : ∀ i : grid0.Coords, EltTy.bits .bf16 = 32 ∨ (Rect.block (s := S2048x512) S256x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x512.size a
  hwx0_5 : ∀ i : grid0.Coords, EltTy.bits .bf16 = 32 ∨ (Rect.block (s := S2048x512) S256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S2048.size a
  hwx0_6 : ∀ i : grid0.Coords, EltTy.bits .f32 = 32 ∨ (Rect.block (s := S2048) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x256.size a ≤ S8x2048x2048.size a
  hwx0_7 : ∀ i : grid0.Coords, EltTy.bits .f32 = 32 ∨ (Rect.block (s := S8x2048x2048) S1x2048x256.size (cc0_transform_7 i) (hinb0_7 i)).WholeWords (EltTy.packing .f32)

variable [Facts₀]

def dot_S1024x2048_S256x1024_S2048x256_0_1_1_0_n_n : DotDims S1024x2048 S256x1024 S2048x256 where
  lhsContracting := [0]
  rhsContracting := [1]
  lhsNonContracting := [1]
  rhsNonContracting := [0]
  lhsBatch := []
  rhsBatch := []
  wf := dot_S1024x2048_S256x1024_S2048x256_0_1_1_0_n_n_wf
def dot_S512x2048_S256x512_S2048x256_0_1_1_0_n_n : DotDims S512x2048 S256x512 S2048x256 where
  lhsContracting := [0]
  rhsContracting := [1]
  lhsNonContracting := [1]
  rhsNonContracting := [0]
  lhsBatch := []
  rhsBatch := []
  wf := dot_S512x2048_S256x512_S2048x256_0_1_1_0_n_n_wf

abbrev win0_0 : Pipeline.Window sig grid0 :=
  Pipeline.Window.ofSpec (Memref.whole main_arg0) S1x1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x512x2048 : Shape := ⟨3, ![8, 512, 2048]⟩
abbrev S2048x2048 : Shape := ⟨2, ![2048, 2048]⟩
abbrev S2048 : Shape := ⟨1, ![2048]⟩
abbrev S8x2048x2048 : Shape := ⟨3, ![8, 2048, 2048]⟩
abbrev S1x1x2048 : Shape := ⟨3, ![1, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x512x2048, .f32⟩
  | .hbm, ⟨2, _⟩ => ⟨S8x512x2048, .f32⟩
  | .hbm, ⟨3, _⟩ => ⟨S2048x2048, .f32⟩
  | .hbm, ⟨4, _⟩ => ⟨S2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S1x1x2048, .f32⟩
  | .hbm, ⟨9, _⟩ => ⟨S8x2048x2048, .f32⟩
  | .hbm, ⟨10, _⟩ => ⟨S8x2048x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  concatenates_S8x1024x2048_S8x512x2048_S8x512x2048_S8x2048x2048_d1 : Shape.Concatenates [S8x1024x2048, S8x512x2048, S8x512x2048] S8x2048x2048 1
  transposes_S8x2048x2048_S8x2048x2048_0_2_1 : S8x2048x2048.Transposes [0, 2, 1] S8x2048x2048
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.LibSumThree.lean ====
/-
  A finite sum cut into three consecutive stretches.

  For `n = a + b + c`, a sum over `Fin n` in a commutative additive monoid is the sum of its first `a` terms,
  plus the sum of the next `b`, plus the sum of the last `c`. Only associativity of addition is used, so the law
  holds on the extended reals with no finiteness condition.
-/
import Mathlib.Algebra.BigOperators.Fin

namespace Cert.LibSumThree

/-- `∑ k < a + b + c, f k = (∑ k < a, f k + ∑ k < b, f (a + k)) + ∑ k < c, f (a + b + k)`. -/
theorem sum_three {M : Type*} [AddCommMonoid M] (a b c n : ℕ) (h : n = a + b + c) (f : Fin n → M) :
    ∑ k, f k = (∑ k : Fin a, f ⟨k.val, by have := k.isLt; omega⟩
        + ∑ k : Fin b, f ⟨a + k.val, by have := k.isLt; omega⟩)
      + ∑ k : Fin c, f ⟨a + b + k.val, by have := k.isLt; omega⟩ := by
  subst h
  rw [Fin.sum_univ_add, Fin.sum_univ_add]
  rfl

end Cert.LibSumThree
-- ==== Proof.Spec.lean ====
/-
  The specification both programs meet, as one function of the five argument arrays.

  With `x₁ : [8, 1024, 2048]`, `x₂, x₃ : [8, 512, 2048]` (features on the middle axis, positions on the last), a weight
  matrix `w : [2048, 2048]` (outputs × features) and a bias `β : [2048]`, the result at `(b, s, o)` is

      (∑_{k < 1024} x₁[b, k, s] · w[o, k]  +  ∑_{k < 512} x₂[b, k, s] · w[o, 1024 + k])
         +  ∑_{k < 512} x₃[b, k, s] · w[o, 1536 + k]   +   β[o] .

  This is a linear layer applied to the three inputs joined along the feature axis: the contraction over the 2048
  joined features is the sum of the three contractions over each input's own features (`sum_cols`), which is only
  associativity of addition and so holds on the extended reals without any finiteness condition.
-/
import Idealize.ShloMosaic.PureOps.Ideal
import Idealize.ShloMosaic.Lib.ValueIdx
import proofs.«131132_j2834678415760_2_alg».proof.Proof.LibSumThree

noncomputable section

namespace Cert.Spec

open Idealize.ShloMosaic Idealize.ShloMosaic.ValueIdx

/-- Column `o + k` of the weight matrix: feature `k` of the input whose features start at offset `o`. -/
abbrev col {K : ℕ} (o : ℕ) (h : o + K ≤ 2048) (k : Fin K) : Fin 2048 := ⟨o + k.val, by have := k.isLt; omega⟩

/-- The linear layer over the joined features, written input by input. -/
def linear (x1 : FVec Ideal ⟨3, ![8, 1024, 2048]⟩ .f32) (x2 x3 : FVec Ideal ⟨3, ![8, 512, 2048]⟩ .f32)
    (w : FVec Ideal ⟨2, ![2048, 2048]⟩ .f32) (β : FVec Ideal ⟨1, ![2048]⟩ .f32) : FVec Ideal ⟨3, ![8, 2048, 2048]⟩ .f32 :=
  fun i =>
    ((∑ k : Fin 1024, x1 (ix3 (i 0) k (i 1)) * w (ix2 (i 2) (col 0 (by decide) k))
        + ∑ k : Fin 512, x2 (ix3 (i 0) k (i 1)) * w (ix2 (i 2) (col 1024 (by decide) k)))
      + ∑ k : Fin 512, x3 (ix3 (i 0) k (i 1)) * w (ix2 (i 2) (col 1536 (by decide) k)))
    + β (ix1 (i 2))

/-- A sum over the 2048 joined features is the sum over the first input's 1024, plus the second's 512, plus the
    third's 512. -/
theorem sum_cols {M : Type*} [AddCommMonoid M] (f : Fin 2048 → M) :
    ∑ k, f k = (∑ k : Fin 1024, f (col 0 (by decide) k) + ∑ k : Fin 512, f (col 1024 (by decide) k))
      + ∑ k : Fin 512, f (col 1536 (by decide) k) := by
  rw [Cert.LibSumThree.sum_three 1024 512 512 2048 rfl f]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

end Cert.Spec

end
-- ==== Proof.RefSide.lean ====
/-
  The reference computes the specification.

  The reference joins the three inputs along the feature axis, swaps the last two axes, contracts the joined
  features against the weight matrix and adds the bias. Read at an index `(b, s, o)`: the contraction runs over the
  2048 joined features; it is cut into the three inputs' own stretches (`Spec.sum_cols`), and inside each stretch
  the joined array at feature `offset + k` is that input at feature `k`.
-/
import proofs.«131132_j2834678415760_2_alg».proof.Proof.Gen.ReferenceIdeal.Read
import proofs.«131132_j2834678415760_2_alg».proof.Proof.Spec
import Idealize.ShloMosaic.Lib.Pipeline.Value
import Idealize.ShloMosaic.Lib.ValueIdx

noncomputable section

namespace Cert.RefSide

open Cert.ReferenceIdeal Cert.ReferenceIdeal.Gen Cert.ReferenceIdeal.Read
open Idealize.ShloMosaic Idealize.ShloMosaic.ValueIdx

variable (x0 : FVec Ideal S8x1024x2048 .f32) (x1 x2 : FVec Ideal S8x512x2048 .f32)

/-- The joined array at a feature of the first stretch is the first input there. -/
theorem join_first (b : Fin 8) (k : Fin 1024) (s : Fin 2048) :
    val_main_v0 (F := Ideal) x0 x1 x2 (ix3 b (Cert.Spec.col 0 (by decide) k) s) = x0 (ix3 b k s) := by
  unfold val_main_v0
  refine concatenate_apply_piece (1 : Fin 3) [⟨S8x1024x2048, x0⟩, ⟨S8x512x2048, x1⟩, ⟨S8x512x2048, x2⟩] _ (ix3 b (Cert.Spec.col 0 (by decide) k) s) 0 (by simp) S8x1024x2048 x0 rfl rfl 0 rfl (ix3 b k s) (fun a ha => ?_) rfl
  match a with
  | ⟨0, _⟩ => rfl
  | ⟨1, _⟩ => exact absurd rfl ha
  | ⟨2, _⟩ => rfl

/-- The joined array at a feature of the second stretch is the second input at that feature less 1024. -/
theorem join_second (b : Fin 8) (k : Fin 512) (s : Fin 2048) :
    val_main_v0 (F := Ideal) x0 x1 x2 (ix3 b (Cert.Spec.col 1024 (by decide) k) s) = x1 (ix3 b k s) := by
  unfold val_main_v0
  refine concatenate_apply_piece (1 : Fin 3) [⟨S8x1024x2048, x0⟩, ⟨S8x512x2048, x1⟩, ⟨S8x512x2048, x2⟩] _ (ix3 b (Cert.Spec.col 1024 (by decide) k) s) 1 (by simp) S8x512x2048 x1 rfl rfl 1024 rfl (ix3 b k s) (fun a ha => ?_) rfl
  match a with
  | ⟨0, _⟩ => rfl
  | ⟨1, _⟩ => exact absurd rfl ha
  | ⟨2, _⟩ => rfl

/-- The joined array at a feature of the third stretch is the third input at that feature less 1536. -/
theorem join_third (b : Fin 8) (k : Fin 512) (s : Fin 2048) :
    val_main_v0 (F := Ideal) x0 x1 x2 (ix3 b (Cert.Spec.col 1536 (by decide) k) s) = x2 (ix3 b k s) := by
  unfold val_main_v0
  refine concatenate_apply_piece (1 : Fin 3) [⟨S8x1024x2048, x0⟩, ⟨S8x512x2048, x1⟩, ⟨S8x512x2048, x2⟩] _ (ix3 b (Cert.Spec.col 1536 (by decide) k) s) 2 (by simp) S8x512x2048 x2 rfl rfl 1536 rfl (ix3 b k s) (fun a ha => ?_) rfl
  match a with
  | ⟨0, _⟩ => rfl
  | ⟨1, _⟩ => exact absurd rfl ha
  | ⟨2, _⟩ => rfl

/-- The left operand of the contraction at `(b, s)` and joined feature `f` is the joined array at `(b, f, s)`. -/
theorem swapped_at (b : Fin 8) (s o f : Fin 2048) :
    val_main_v1 (F := Ideal) x0 x1 x2 (lidx_main_v2 (ix3 b s o) f) = val_main_v0 (F := Ideal) x0 x1 x2 (ix3 b f s) := by
  rw [val_main_v1_apply]
  refine congrArg _ (funext fun a => ?_)
  match a with
  | ⟨0, _⟩ => rfl
  | ⟨1, _⟩ => rfl
  | ⟨2, _⟩ => rfl

/-- The right operand of the contraction at output `o` and joined feature `f` is the weight `w[o, f]`. -/
theorem weight_at (b : Fin 8) (s o f : Fin 2048) : ridx_main_v2 (ix3 b s o) f = ix2 o f :=
  funext fun a => match a with
    | ⟨0, _⟩ => rfl
    | ⟨1, _⟩ => rfl

/-- The bias broadcast over batches and positions reads `β[o]`. -/
theorem bias_at (b : Fin 8) (s o : Fin 2048) : idx_main_v3 (idx_main_v4 (ix3 b s o)) = ix1 o :=
  funext fun a => match a with
    | ⟨0, _⟩ => rfl

/-- The reference's result is the specification of its arguments. -/
theorem result_eq (x3 : FVec Ideal S2048x2048 .f32) (x4 : FVec Ideal S2048 .f32) :
    val_main_v5 (F := Ideal) x0 x1 x2 x3 x4 = Cert.Spec.linear x0 x1 x2 x3 x4 := by
  funext i
  obtain ⟨b, s, o, rfl⟩ : ∃ (b : Fin 8) (s o : Fin 2048), i = ix3 b s o := ⟨i 0, i 1, i 2, eq_ix3 i⟩
  rw [val_main_v5_apply, val_main_v2_apply, val_main_v4_apply, val_main_v3_apply, bias_at, Cert.Spec.sum_cols]
  show ((_ + _) + _) + _ = ((_ + _) + _) + _
  refine congrArg₂ (· + ·) (congrArg₂ (· + ·) (congrArg₂ (· + ·) ?_ ?_) ?_) rfl
  · refine Finset.sum_congr rfl fun k _ => ?_
    rw [swapped_at, weight_at, join_first]
  · refine Finset.sum_congr rfl fun k _ => ?_
    rw [swapped_at, weight_at, join_second]
  · refine Finset.sum_congr rfl fun k _ => ?_
    rw [swapped_at, weight_at, join_third]

end Cert.RefSide

end
-- ==== Proof.Pieces.lean ====
/-
  What one run of the kernel body leaves behind, as values.

  The body has two cases. At the first output tile of a batch (case A) it copies the three input blocks of the batch
  into three scratch buffers, rounding to the narrower float format (the identity on extended reals), and then
  computes the output tile from those scratch buffers, the three weight tiles and the bias tile. At every other
  output tile (case B) it leaves the scratch buffers as the previous point left them and computes the output tile
  from them. Below, each buffer's final contents is read back as the body's own arithmetic term of its inputs:
  `k0_pay1`, `k0_pay2`, `k0_pay3` for the three scratch copies, `k0_pay4` for the output tile.
-/
import proofs.«131132_j2834678415760_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero1 : (![0] : Fin 1 → Nat) = fun _ => 0 := funext fun a => by fin_cases a <;> rfl

/-- Case A leaves in the first scratch buffer the copy of the first input block. -/
theorem scratchA0 (c : Dev nD) (i : grid0.Coords) (arg2 : Memref sig .tc .vmem S1x1024x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256 .f32) (harg8 : arg8.IsWhole) (arg9 : Memref sig .tc .vmem S1x2048x256 .f32) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .bf16) (harg12 : arg12.IsWhole) (hc0 : cond0_0 i) (x0 : Vec F S1x1024x2048 .f32) (x1 : Vec F S1x512x2048 .f32) (x2 : Vec F S1x512x2048 .f32) (x3 : Vec F S256x1024 .bf16) (x4 : Vec F S256x512 .bf16) (x5 : Vec F S256x512 .bf16) (x6 : Vec F S256 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay1 x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero2]
  simp only [View.readAt_eq_ld, harg2.read_unread, View.ld_unit_zero (S := S1x1024x2048) zero3]

/-- Case A leaves in the second scratch buffer the copy of the second input block. -/
theorem scratchA1 (c : Dev nD) (i : grid0.Coords) (arg2 : Memref sig .tc .vmem S1x1024x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256 .f32) (harg8 : arg8.IsWhole) (arg9 : Memref sig .tc .vmem S1x2048x256 .f32) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .bf16) (harg12 : arg12.IsWhole) (hc0 : cond0_0 i) (x0 : Vec F S1x1024x2048 .f32) (x1 : Vec F S1x512x2048 .f32) (x2 : Vec F S1x512x2048 .f32) (x3 : Vec F S256x1024 .bf16) (x4 : Vec F S256x512 .bf16) (x5 : Vec F S256x512 .bf16) (x6 : Vec F S256 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay2 x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero2]
  simp only [View.readAt_eq_ld, harg3.read_unread, View.ld_unit_zero (S := S1x512x2048) zero3]

/-- Case A leaves in the third scratch buffer the copy of the third input block. -/
theorem scratchA2 (c : Dev nD) (i : grid0.Coords) (arg2 : Memref sig .tc .vmem S1x1024x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256 .f32) (harg8 : arg8.IsWhole) (arg9 : Memref sig .tc .vmem S1x2048x256 .f32) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .bf16) (harg12 : arg12.IsWhole) (hc0 : cond0_0 i) (x0 : Vec F S1x1024x2048 .f32) (x1 : Vec F S1x512x2048 .f32) (x2 : Vec F S1x512x2048 .f32) (x3 : Vec F S256x1024 .bf16) (x4 : Vec F S256x512 .bf16) (x5 : Vec F S256x512 .bf16) (x6 : Vec F S256 .f32) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = k0_pay3 x2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero2]
  simp only [View.readAt_eq_ld, harg4.read_unread, View.ld_unit_zero (S := S1x512x2048) zero3]

/-- Case A's output tile: the body's arithmetic over the scratch copies it has just made. -/
theorem outA (c : Dev nD) (i : grid0.Coords) (arg2 : Memref sig .tc .vmem S1x1024x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256 .f32) (harg8 : arg8.IsWhole) (arg9 : Memref sig .tc .vmem S1x2048x256 .f32) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .bf16) (harg12 : arg12.IsWhole) (hc0 : cond0_0 i) (x0 : Vec F S1x1024x2048 .f32) (x1 : Vec F S1x512x2048 .f32) (x2 : Vec F S1x512x2048 .f32) (x3 : Vec F S256x1024 .bf16) (x4 : Vec F S256x512 .bf16) (x5 : Vec F S256x512 .bf16) (x6 : Vec F S256 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = k0_pay4 (k0_pay1 x0) x3 (k0_pay2 x1) x4 (k0_pay3 x2) x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero zero3]
  simp only [View.readCov_unit_zero (S := S1024x2048) _ zero2, View.readCov_unit_zero (S := S512x2048) _ zero2,
    View.readAt_eq_ld, harg2.read_unread, harg3.read_unread, harg4.read_unread, harg5.read_unread, harg6.read_unread,
    harg7.read_unread, harg8.read_unread, View.ld_unit_zero (S := S1x1024x2048) zero3,
    View.ld_unit_zero (S := S1x512x2048) zero3, View.ld_unit_zero (S := S256x1024) zero2,
    View.ld_unit_zero (S := S256x512) zero2, View.ld_unit_zero (S := S256) zero1]

/-- Case B's output tile: the body's arithmetic over the scratch contents `xs0`, `xs1`, `xs2` it found. -/
theorem outB (c : Dev nD) (i : grid0.Coords) (arg2 : Memref sig .tc .vmem S1x1024x2048 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256 .f32) (harg8 : arg8.IsWhole) (arg9 : Memref sig .tc .vmem S1x2048x256 .f32) (harg9 : arg9.IsWhole) (arg10 : Memref sig .tc .vmem S1024x2048 .bf16) (harg10 : arg10.IsWhole) (arg11 : Memref sig .tc .vmem S512x2048 .bf16) (harg11 : arg11.IsWhole) (arg12 : Memref sig .tc .vmem S512x2048 .bf16) (harg12 : arg12.IsWhole) (hc0 : ¬cond0_0 i) (x0 : Vec F S1x1024x2048 .f32) (x1 : Vec F S1x512x2048 .f32) (x2 : Vec F S1x512x2048 .f32) (x3 : Vec F S256x1024 .bf16) (x4 : Vec F S256x512 .bf16) (x5 : Vec F S256x512 .bf16) (x6 : Vec F S256 .f32) (xs0 : Vec F S1024x2048 .bf16) (xs1 : Vec F S512x2048 .bf16) (xs2 : Vec F S512x2048 .bf16) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = k0_pay4 xs0 x3 xs1 x4 xs2 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  rw [View.canon_unit_zero zero3]
  simp only [View.readAt_eq_ld, harg5.read_unread, harg6.read_unread, harg7.read_unread, harg8.read_unread,
    harg10.read_unread, harg11.read_unread, harg12.read_unread, View.ld_unit_zero (S := S1024x2048) zero2,
    View.ld_unit_zero (S := S512x2048) zero2, View.ld_unit_zero (S := S256x1024) zero2,
    View.ld_unit_zero (S := S256x512) zero2, View.ld_unit_zero (S := S256) zero1]

end Cert.KernelIdeal.Pieces

end
-- ==== Proof.Carried.lean ====
/-
  What the scratch buffers and the output tile hold after every grid point.

  The grid runs the 8 output tiles of batch 0, then those of batch 1, and so on: point `n` is tile `n % 8` of batch
  `n / 8`, and the first point of its batch is point `8 · (n / 8)`. The scratch buffers are written only at the first
  tile of a batch, so after ANY point they hold the copies of the three input blocks at the first point of that
  point's batch (`carried`, by induction on the point: a first tile writes them, any other tile keeps them). Hence
  the output tile after a point is the body's arithmetic over those copies and the point's own weight and bias tiles
  (`tile`).
-/
import proofs.«131132_j2834678415760_2_alg».proof.Proof.Gen.KernelIdeal.Frame
import Idealize.ShloMosaic.Lib.Pipeline.Value
import Idealize.ShloMosaic.Lib.Tactic
import proofs.«131132_j2834678415760_2_alg».proof.Proof.Pieces
set_option maxRecDepth 16384

noncomputable section

namespace Cert.KernelIdeal.Carried

open Cert.KernelIdeal Cert.KernelIdeal.Gen Idealize.ShloMosaic Idealize.ShloMosaic.TcCoe Idealize.SL.Sem
open Idealize.ShloMosaic.Tactic

open Cert.KernelIdeal.Pieces

variable {F : FTy → Type} [FloatOps F]
variable (m : (ℓ : Loc nD τ sig) → Buf (Elt F) ℓ)

/-- After point `n`, the three scratch buffers hold the copies of the input blocks at the first point `t₀` of
    `n`'s batch. -/
theorem carried (c : Dev nD) : ∀ (n : ℕ) (h : n < cfg0.N) (t₀ : Fin cfg0.N), t₀.val = 8 * (n / 8) →
    (outsAt0 m c n h).2 = (k0_pay1 (iblk m c 0 t₀), k0_pay2 (iblk m c 1 t₀), k0_pay3 (iblk m c 2 t₀))
  | 0, h, t₀, ht => by
    obtain rfl : t₀ = ⟨0, h⟩ := Fin.ext (by rw [ht])
    rw [outsAt0_A m c ⟨0, h⟩ rfl]
    dsimp only
    refine congrArg₂ Prod.mk ?_ (congrArg₂ Prod.mk ?_ ?_)
    · exact scratchA0 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) scM0_2 (Memref.isWhole_whole _) ((hcond0_0 ⟨0, h⟩).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))
    · exact scratchA1 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) scM0_2 (Memref.isWhole_whole _) ((hcond0_0 ⟨0, h⟩).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))
    · exact scratchA2 c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) scM0_2 (Memref.isWhole_whole _) ((hcond0_0 ⟨0, h⟩).mpr rfl) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N))
  | n + 1, h, t₀, ht => by
    by_cases h0 : (n + 1) % 8 = 0
    · obtain rfl : t₀ = ⟨n + 1, h⟩ := Fin.ext (by show t₀.val = n + 1; rw [ht]; omega)
      rw [outsAt0_A m c ⟨n + 1, h⟩ h0]
      dsimp only
      refine congrArg₂ Prod.mk ?_ (congrArg₂ Prod.mk ?_ ?_)
      · exact scratchA0 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) scM0_2 (Memref.isWhole_whole _) ((hcond0_0 ⟨n + 1, h⟩).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))
      · exact scratchA1 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) scM0_2 (Memref.isWhole_whole _) ((hcond0_0 ⟨n + 1, h⟩).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))
      · exact scratchA2 c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) scM0_2 (Memref.isWhole_whole _) ((hcond0_0 ⟨n + 1, h⟩).mpr h0) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (iblk m c 6 (⟨n + 1, h⟩ : Fin cfg0.N))
    · have ih := carried c n (Nat.lt_of_succ_lt h) t₀ (by rw [ht]; omega)
      rw [outsAt0_B m c ⟨n + 1, h⟩ h0]
      dsimp only
      unfold sout0_B_0 sout0_B_1 sout0_B_2
      exact ih

/-- After point `t`, the output tile is the body's arithmetic over the copies of the input blocks at the first point
    `t₀` of `t`'s batch and `t`'s own weight and bias tiles. -/
theorem tile (c : Dev nD) (t t₀ : Fin cfg0.N) (ht : t₀.val = 8 * (t.val / 8)) :
    (outsAt0 m c t.val t.isLt).1
      = k0_pay4 (k0_pay1 (iblk m c 0 t₀)) (iblk m c 3 t) (k0_pay2 (iblk m c 1 t₀)) (iblk m c 4 t)
          (k0_pay3 (iblk m c 2 t₀)) (iblk m c 5 t) (iblk m c 6 t) := by
  by_cases h0 : t.val % 8 = 0
  · obtain rfl : t₀ = t := Fin.ext (by rw [ht]; omega)
    rw [outsAt0_A m c t₀ h0]
    dsimp only
    exact outA c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) (ms0_7 t₀) (hs0_7 t₀) scM0_0 (Memref.isWhole_whole _) scM0_1 (Memref.isWhole_whole _) scM0_2 (Memref.isWhole_whole _) ((hcond0_0 t₀).mpr h0) (iblk m c 0 t₀) (iblk m c 1 t₀) (iblk m c 2 t₀) (iblk m c 3 t₀) (iblk m c 4 t₀) (iblk m c 5 t₀) (iblk m c 6 t₀)
  · have hN : cfg0.N = 64 := N_0
    have hlt : t.val - 1 < cfg0.N := Nat.lt_of_le_of_lt (Nat.sub_le _ _) t.isLt
    have hc := carried m c (t.val - 1) hlt t₀ (by rw [ht]; omega)
    have e0 : (outsAt0 m c (t.val - 1) hlt).2.1 = k0_pay1 (iblk m c 0 t₀) := congrArg (fun p => p.1) hc
    have e1 : (outsAt0 m c (t.val - 1) hlt).2.2.1 = k0_pay2 (iblk m c 1 t₀) := congrArg (fun p => p.2.1) hc
    have e2 : (outsAt0 m c (t.val - 1) hlt).2.2.2 = k0_pay3 (iblk m c 2 t₀) := congrArg (fun p => p.2.2) hc
    rw [outsAt0_B m c t h0]
    dsimp only
    refine (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) hlt).2.1 (outsAt0 m c (t.val - 1) hlt).2.2.1 (outsAt0 m c (t.val - 1) hlt).2.2.2).trans ?_
    rw [e0, e1, e2]

end Cert.KernelIdeal.Carried

end
-- ==== Proof.Payload.lean ====
/-
  The body's arithmetic at an index, on the extended reals.

  The output tile at row `s` (a position) and column `n` (an output of the tile) is

      (∑_{k < 1024} a₀[k, s] · w₁[n, k]  +  ∑_{k < 512} a₁[k, s] · w₂[n, k])  +  ∑_{k < 512} a₂[k, s] · w₃[n, k]  +  β[n] :

  three matrix products, each contracting the FIRST axis of a scratch buffer (features × positions) against the SECOND
  axis of a weight tile (outputs × features) into the zero accumulator, added, plus the bias tile laid along the rows.
  A scratch copy of an input block is that block with its leading unit axis dropped (the change of float format is the
  identity on extended reals).
-/
import proofs.«131132_j2834678415760_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- A position coordinate of the wide product's left operand is the result's row. -/
theorem wide_left_row (j : S2048x256.Idx) (q : dot_S1024x2048_S256x1024_S2048x256_0_1_1_0_n_n.contr.Idx) : (dot_S1024x2048_S256x1024_S2048x256_0_1_1_0_n_n.lhsIdx j q 1).val = (j 0).val := by
  unfold DotDims.lhsIdx
  rw [dif_neg (show ¬(1 : Fin S1024x2048.rank) ∈ dot_S1024x2048_S256x1024_S2048x256_0_1_1_0_n_n.lhsBatch by decide),
    dif_pos (show (1 : Fin S1024x2048.rank) ∈ dot_S1024x2048_S256x1024_S2048x256_0_1_1_0_n_n.lhsNonContracting by decide)]
  rfl

/-- An output coordinate of the wide product's right operand is the result's column. -/
theorem wide_right_col (j : S2048x256.Idx) (q : dot_S1024x2048_S256x1024_S2048x256_0_1_1_0_n_n.contr.Idx) : (dot_S1024x2048_S256x1024_S2048x256_0_1_1_0_n_n.rhsIdx j q 0).val = (j 1).val := by
  unfold DotDims.rhsIdx
  rw [dif_neg (show ¬(0 : Fin S256x1024.rank) ∈ dot_S1024x2048_S256x1024_S2048x256_0_1_1_0_n_n.rhsBatch by decide),
    dif_pos (show (0 : Fin S256x1024.rank) ∈ dot_S1024x2048_S256x1024_S2048x256_0_1_1_0_n_n.rhsNonContracting by decide)]
  rfl

/-- A position coordinate of the narrow product's left operand is the result's row. -/
theorem narrow_left_row (j : S2048x256.Idx) (q : dot_S512x2048_S256x512_S2048x256_0_1_1_0_n_n.contr.Idx) : (dot_S512x2048_S256x512_S2048x256_0_1_1_0_n_n.lhsIdx j q 1).val = (j 0).val := by
  unfold DotDims.lhsIdx
  rw [dif_neg (show ¬(1 : Fin S512x2048.rank) ∈ dot_S512x2048_S256x512_S2048x256_0_1_1_0_n_n.lhsBatch by decide),
    dif_pos (show (1 : Fin S512x2048.rank) ∈ dot_S512x2048_S256x512_S2048x256_0_1_1_0_n_n.lhsNonContracting by decide)]
  rfl

/-- An output coordinate of the narrow product's right operand is the result's column. -/
theorem narrow_right_col (j : S2048x256.Idx) (q : dot_S512x2048_S256x512_S2048x256_0_1_1_0_n_n.contr.Idx) : (dot_S512x2048_S256x512_S2048x256_0_1_1_0_n_n.rhsIdx j q 0).val = (j 1).val := by
  unfold DotDims.rhsIdx
  rw [dif_neg (show ¬(0 : Fin S256x512.rank) ∈ dot_S512x2048_S256x512_S2048x256_0_1_1_0_n_n.rhsBatch by decide),
    dif_pos (show (0 : Fin S256x512.rank) ∈ dot_S512x2048_S256x512_S2048x256_0_1_1_0_n_n.rhsNonContracting by decide)]
  rfl

/-- The wide product: features × positions against outputs × features, 1024 features. -/
theorem dot_wide (l : FVec Ideal S1024x2048 .bf16) (r : FVec Ideal S256x1024 .bf16) (s : Fin 2048) (n : Fin 256) :
    matmul dot_S1024x2048_S256x1024_S2048x256_0_1_1_0_n_n none l r (constant (F := Ideal) S2048x256 .f32 0x00000000#32) (ix2 s n)
      = ∑ k : Fin 1024, l (ix2 k s) * r (ix2 n k) := by
  show FloatOps.matmul _ _ l r _ _ = _
  rw [Ideal.matmul_constant_zero_apply,
    ← Equiv.sum_comp (contrEquiv1 dot_S1024x2048_S256x1024_S2048x256_0_1_1_0_n_n 1024 rfl rfl).symm]
  refine Finset.sum_congr rfl fun k _ => ?_
  have hk := contrEquiv1_symm_val dot_S1024x2048_S256x1024_S2048x256_0_1_1_0_n_n 1024 rfl rfl k
  have el : dot_S1024x2048_S256x1024_S2048x256_0_1_1_0_n_n.lhsIdx (ix2 s n)
      ((contrEquiv1 dot_S1024x2048_S256x1024_S2048x256_0_1_1_0_n_n 1024 rfl rfl).symm k) = ix2 k s :=
    funext fun a => Fin.ext (by
      match a with
      | ⟨0, _⟩ => exact (dot_S1024x2048_S256x1024_S2048x256_0_1_1_0_n_n.lhsIdx_val_of_single rfl _ _).trans hk
      | ⟨1, _⟩ => exact wide_left_row _ _)
  have er : dot_S1024x2048_S256x1024_S2048x256_0_1_1_0_n_n.rhsIdx (ix2 s n)
      ((contrEquiv1 dot_S1024x2048_S256x1024_S2048x256_0_1_1_0_n_n 1024 rfl rfl).symm k) = ix2 n k :=
    funext fun a => Fin.ext (by
      match a with
      | ⟨0, _⟩ => exact wide_right_col _ _
      | ⟨1, _⟩ => exact (dot_S1024x2048_S256x1024_S2048x256_0_1_1_0_n_n.rhsIdx_val_of_single rfl _ _).trans hk)
  rw [el, er]

/-- The narrow product: the same contraction with 512 features. -/
theorem dot_narrow (l : FVec Ideal S512x2048 .bf16) (r : FVec Ideal S256x512 .bf16) (s : Fin 2048) (n : Fin 256) :
    matmul dot_S512x2048_S256x512_S2048x256_0_1_1_0_n_n none l r (constant (F := Ideal) S2048x256 .f32 0x00000000#32) (ix2 s n)
      = ∑ k : Fin 512, l (ix2 k s) * r (ix2 n k) := by
  show FloatOps.matmul _ _ l r _ _ = _
  rw [Ideal.matmul_constant_zero_apply,
    ← Equiv.sum_comp (contrEquiv1 dot_S512x2048_S256x512_S2048x256_0_1_1_0_n_n 512 rfl rfl).symm]
  refine Finset.sum_congr rfl fun k _ => ?_
  have hk := contrEquiv1_symm_val dot_S512x2048_S256x512_S2048x256_0_1_1_0_n_n 512 rfl rfl k
  have el : dot_S512x2048_S256x512_S2048x256_0_1_1_0_n_n.lhsIdx (ix2 s n)
      ((contrEquiv1 dot_S512x2048_S256x512_S2048x256_0_1_1_0_n_n 512 rfl rfl).symm k) = ix2 k s :=
    funext fun a => Fin.ext (by
      match a with
      | ⟨0, _⟩ => exact (dot_S512x2048_S256x512_S2048x256_0_1_1_0_n_n.lhsIdx_val_of_single rfl _ _).trans hk
      | ⟨1, _⟩ => exact narrow_left_row _ _)
  have er : dot_S512x2048_S256x512_S2048x256_0_1_1_0_n_n.rhsIdx (ix2 s n)
      ((contrEquiv1 dot_S512x2048_S256x512_S2048x256_0_1_1_0_n_n 512 rfl rfl).symm k) = ix2 n k :=
    funext fun a => Fin.ext (by
      match a with
      | ⟨0, _⟩ => exact narrow_right_col _ _
      | ⟨1, _⟩ => exact (dot_S512x2048_S256x512_S2048x256_0_1_1_0_n_n.rhsIdx_val_of_single rfl _ _).trans hk)
  rw [el, er]

/-- The scratch copy of the first input block at feature `k`, position `s`. -/
theorem copy_wide (x : Vec Ideal S1x1024x2048 .f32) (k : Fin 1024) (s : Fin 2048) :
    k0_pay1 (F := Ideal) x (ix2 k s) = x (ix3 (0 : Fin 1) k s) := by
  unfold k0_pay1
  rw [shapeCast_self, truncf_apply]
  exact shapeCast_1ab_ab_apply x _ k s

/-- The scratch copy of the second input block at feature `k`, position `s`. -/
theorem copy_second (x : Vec Ideal S1x512x2048 .f32) (k : Fin 512) (s : Fin 2048) :
    k0_pay2 (F := Ideal) x (ix2 k s) = x (ix3 (0 : Fin 1) k s) := by
  unfold k0_pay2
  rw [shapeCast_self, truncf_apply]
  exact shapeCast_1ab_ab_apply x _ k s

/-- The scratch copy of the third input block at feature `k`, position `s`. -/
theorem copy_third (x : Vec Ideal S1x512x2048 .f32) (k : Fin 512) (s : Fin 2048) :
    k0_pay3 (F := Ideal) x (ix2 k s) = x (ix3 (0 : Fin 1) k s) := by
  unfold k0_pay3
  rw [shapeCast_self, truncf_apply]
  exact shapeCast_1ab_ab_apply x _ k s

/-- The output tile at position `s`, output `n`: the three products added, plus the bias. -/
theorem tile_apply (a0 : Vec Ideal S1024x2048 .bf16) (w1 : Vec Ideal S256x1024 .bf16) (a1 : Vec Ideal S512x2048 .bf16)
    (w2 : Vec Ideal S256x512 .bf16) (a2 : Vec Ideal S512x2048 .bf16) (w3 : Vec Ideal S256x512 .bf16) (β : Vec Ideal S256 .f32)
    (u : Fin 1) (s : Fin 2048) (n : Fin 256) :
    k0_pay4 (F := Ideal) a0 w1 a1 w2 a2 w3 β (ix3 u s n)
      = ((∑ k : Fin 1024, a0 (ix2 k s) * w1 (ix2 n k) + ∑ k : Fin 512, a1 (ix2 k s) * w2 (ix2 n k))
          + ∑ k : Fin 512, a2 (ix2 k s) * w3 (ix2 n k)) + β (ix1 n) := by
  unfold k0_pay4
  rw [shapeCast_ab_1ab_apply _ _ u s n]
  simp only [shapeCast_self, addf_apply]
  rw [dot_wide, dot_narrow, dot_narrow, broadcastTo_1b_ab_apply, shapeCast_a_1a_apply]

end Cert.KernelIdeal.Payload

end
-- ==== Proof.Blocks.lean ====
/-
  From the tiles to the whole result array.

  Point `t` of the grid is output tile `t % 8` of batch `t / 8`. Its input blocks are batch `t / 8` of the three
  inputs (whole in features and positions), its weight tiles are rows `256 · (t % 8) …` of the three column ranges
  of the weight matrix (the host cut and narrowed them before the launch: columns `0…`, `1024…`, `1536…`), its bias
  tile entries `256 · (t % 8) …` of the bias, and the tile it writes back is rows all, columns `256 · (t % 8) …` of
  batch `t / 8` of the result. Read at an index, what the point writes back is the specification of the argument
  arrays at the corresponding index of the result (`written_back`); the 64 tiles cover the result array (`covered`);
  so the array after the run is the specification of the arguments (`final`, `run`).
-/
import proofs.«131132_j2834678415760_2_alg».proof.Proof.Gen.KernelIdeal.Frame
import Idealize.ShloMosaic.Lib.Pipeline.Value
import Idealize.ShloMosaic.Lib.Tactic
import proofs.«131132_j2834678415760_2_alg».proof.Proof.Gen.KernelIdeal.Value
import proofs.«131132_j2834678415760_2_alg».proof.Proof.Carried
import proofs.«131132_j2834678415760_2_alg».proof.Proof.Payload
import proofs.«131132_j2834678415760_2_alg».proof.Proof.Spec
import Idealize.ShloMosaic.Lib.StableHlo.Run
import Idealize.ShloMosaic.Lib.ValueIdx
import Idealize.ShloMosaic.Lib.ValueLayout
set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Tactic

open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification of the five argument arrays as launched. -/
abbrev result (c : Dev nD) : Buf (Elt Ideal) ((c : Thread nD τ).loc main_v6) :=
  Cert.Spec.linear (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the grid: batch `t / 8` for the inputs and the result, tile `t % 8` for the weights,
    the bias and the result's columns, zero elsewhere. -/
theorem index_maps : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = t.val % 8 ∧ win0_5.index t (1 : Fin 2) = 0
    ∧ win0_6.index t (0 : Fin 1) = t.val % 8
    ∧ win0_7.index t (0 : Fin 3) = t.val / 8 ∧ win0_7.index t (1 : Fin 3) = 0 ∧ win0_7.index t (2 : Fin 3) = t.val % 8 :=
  (by decide +kernel : ∀ t : Fin grid0.N, _)

/-! ## The arrays the host prepared: the weight matrix's three column ranges -/

theorem weights_first (c : Dev nD) : (V m c main_v1 : S2048x1024.Idx → EReal)
    = truncf (F := Ideal) .bf16 (extractStridedSlice S2048x1024 ![0, 0] (m ((c : Thread nD τ).loc main_arg3)) slices_S2048x2048_S2048x1024_0_0) bitsLt_bf16_f32 := by
  dsimp only [V, hostOps0]; after_results

theorem weights_second (c : Dev nD) : (V m c main_v3 : S2048x512.Idx → EReal)
    = truncf (F := Ideal) .bf16 (extractStridedSlice S2048x512 ![0, 1024] (m ((c : Thread nD τ).loc main_arg3)) slices_S2048x2048_S2048x512_0_1024) bitsLt_bf16_f32 := by
  dsimp only [V, hostOps0]; after_results

theorem weights_third (c : Dev nD) : (V m c main_v5 : S2048x512.Idx → EReal)
    = truncf (F := Ideal) .bf16 (extractStridedSlice S2048x512 ![0, 1536] (m ((c : Thread nD τ).loc main_arg3)) slices_S2048x2048_S2048x512_0_1536) bitsLt_bf16_f32 := by
  dsimp only [V, hostOps0]; after_results

/-! ## Each window's block at a point, read at an index of the argument it stages -/

/-- The first input's block at `t` is batch `t / 8` of the first input. -/
theorem block_first (c : Dev nD) (t : Fin cfg0.N) (b : Fin 8) (hb : b.val = t.val / 8) (k : Fin 1024) (s : Fin 2048) :
    iblk m c 0 t (ix3 (0 : Fin 1) k s) = m ((c : Thread nD τ).loc main_arg0) (ix3 b k s) := by
  obtain ⟨e0, e1, e2, -⟩ := index_maps t
  unfold iblk
  rw [View.read_apply]
  show V m c main_arg0 (((cfg0.win 0).blk t).view.emb (ix3 (0 : Fin 1) k s)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * k.val = k.val; omega
  | ⟨2, _⟩ => show win0_0.index t (2 : Fin 3) * 2048 + 1 * s.val = s.val; omega

/-- The second input's block at `t` is batch `t / 8` of the second input. -/
theorem block_second (c : Dev nD) (t : Fin cfg0.N) (b : Fin 8) (hb : b.val = t.val / 8) (k : Fin 512) (s : Fin 2048) :
    iblk m c 1 t (ix3 (0 : Fin 1) k s) = m ((c : Thread nD τ).loc main_arg1) (ix3 b k s) := by
  obtain ⟨-, -, -, e0, e1, e2, -⟩ := index_maps t
  unfold iblk
  rw [View.read_apply]
  show V m c main_arg1 (((cfg0.win 1).blk t).view.emb (ix3 (0 : Fin 1) k s)) = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * k.val = k.val; omega
  | ⟨2, _⟩ => show win0_1.index t (2 : Fin 3) * 2048 + 1 * s.val = s.val; omega

/-- The third input's block at `t` is batch `t / 8` of the third input. -/
theorem block_third (c : Dev nD) (t : Fin cfg0.N) (b : Fin 8) (hb : b.val = t.val / 8) (k : Fin 512) (s : Fin 2048) :
    iblk m c 2 t (ix3 (0 : Fin 1) k s) = m ((c : Thread nD τ).loc main_arg2) (ix3 b k s) := by
  obtain ⟨-, -, -, -, -, -, e0, e1, e2, -⟩ := index_maps t
  unfold iblk
  rw [View.read_apply]
  show V m c main_arg2 (((cfg0.win 2).blk t).view.emb (ix3 (0 : Fin 1) k s)) = _
  rw [V_main_arg2]
  refine congrArg _ (funext fun a => Fin.ext ?_)
  match a with
  | ⟨0, _⟩ => show win0_2.index t (0 : Fin 3) * 1 + 1 * 0 = b.val; omega
  | ⟨1, _⟩ => show win0_2.index t (1 : Fin 3) * 512 + 1 * k.val = k.val; omega
  | ⟨2, _⟩ => show win0_2.index t (2 : Fin 3) * 2048 + 1 * s.val = s.val; omega

/-- The first weight tile at `t`: rows `256 · (t % 8) + n` of the weight matrix, columns `0 + k`. -/
theorem tile_first (c : Dev nD) (t : Fin cfg0.N) (o : Fin 2048) (n : Fin 256) (ho : o.val = t.val % 8 * 256 + n.val) (k : Fin 1024) :
    iblk m c 3 t (ix2 n k) = m ((c : Thread nD τ).loc main_arg3) (ix2 o (Cert.Spec.col 0 (by decide) k)) := by
  obtain ⟨-, -, -, -, -, -, -, -, -, e0, e1, -⟩ := index_maps t
  unfold iblk
  rw [View.read_apply]
  show V m c main_v1 (((cfg0.win 3).blk t).view.emb (ix2 n k)) = _
  have hi : ((cfg0.win 3).blk t).view.emb (ix2 n k) = ix2 o k := funext fun a => Fin.ext (by
    match a with
    | ⟨0, _⟩ => show win0_3.index t (0 : Fin 2) * 256 + 1 * n.val = o.val; omega
    | ⟨1, _⟩ => show win0_3.index t (1 : Fin 2) * 1024 + 1 * k.val = k.val; omega)
  rw [hi, weights_first, truncf_apply]
  exact slice2_axis1_apply 0 _ _ o k _ rfl

/-- The second weight tile at `t`: rows `256 · (t % 8) + n`, columns `1024 + k`. -/
theorem tile_second (c : Dev nD) (t : Fin cfg0.N) (o : Fin 2048) (n : Fin 256) (ho : o.val = t.val % 8 * 256 + n.val) (k : Fin 512) :
    iblk m c 4 t (ix2 n k) = m ((c : Thread nD τ).loc main_arg3) (ix2 o (Cert.Spec.col 1024 (by decide) k)) := by
  obtain ⟨-, -, -, -, -, -, -, -, -, -, -, e0, e1, -⟩ := index_maps t
  unfold iblk
  rw [View.read_apply]
  show V m c main_v3 (((cfg0.win 4).blk t).view.emb (ix2 n k)) = _
  have hi : ((cfg0.win 4).blk t).view.emb (ix2 n k) = ix2 o k := funext fun a => Fin.ext (by
    match a with
    | ⟨0, _⟩ => show win0_4.index t (0 : Fin 2) * 256 + 1 * n.val = o.val; omega
    | ⟨1, _⟩ => show win0_4.index t (1 : Fin 2) * 512 + 1 * k.val = k.val; omega)
  rw [hi, weights_second, truncf_apply]
  exact slice2_axis1_apply 1024 _ _ o k _ rfl

/-- The third weight tile at `t`: rows `256 · (t % 8) + n`, columns `1536 + k`. -/
theorem tile_third (c : Dev nD) (t : Fin cfg0.N) (o : Fin 2048) (n : Fin 256) (ho : o.val = t.val % 8 * 256 + n.val) (k : Fin 512) :
    iblk m c 5 t (ix2 n k) = m ((c : Thread nD τ).loc main_arg3) (ix2 o (Cert.Spec.col 1536 (by decide) k)) := by
  obtain ⟨-, -, -, -, -, -, -, -, -, -, -, -, -, e0, e1, -⟩ := index_maps t
  unfold iblk
  rw [View.read_apply]
  show V m c main_v5 (((cfg0.win 5).blk t).view.emb (ix2 n k)) = _
  have hi : ((cfg0.win 5).blk t).view.emb (ix2 n k) = ix2 o k := funext fun a => Fin.ext (by
    match a with
    | ⟨0, _⟩ => show win0_5.index t (0 : Fin 2) * 256 + 1 * n.val = o.val; omega
    | ⟨1, _⟩ => show win0_5.index t (1 : Fin 2) * 512 + 1 * k.val = k.val; omega)
  rw [hi, weights_third, truncf_apply]
  exact slice2_axis1_apply 1536 _ _ o k _ rfl

/-- The bias tile at `t`: entries `256 · (t % 8) + n` of the bias. -/
theorem tile_bias (c : Dev nD) (t : Fin cfg0.N) (o : Fin 2048) (n : Fin 256) (ho : o.val = t.val % 8 * 256 + n.val) :
    iblk m c 6 t (ix1 n) = m ((c : Thread nD τ).loc main_arg4) (ix1 o) := by
  obtain ⟨-, -, -, -, -, -, -, -, -, -, -, -, -, -, -, e0, -⟩ := index_maps t
  unfold iblk
  rw [View.read_apply]
  show V m c main_arg4 (((cfg0.win 6).blk t).view.emb (ix1 n)) = _
  rw [V_main_arg4]
  refine congrArg _ (funext fun a => Fin.ext ?_)
  match a with
  | ⟨0, _⟩ => show win0_6.index t (0 : Fin 1) * 256 + 1 * n.val = o.val; omega

/-! ## What a point writes back -/

/-- What point `t` writes back is its block of the specification of the arguments. -/
theorem written_back (c : Dev nD) (t : Fin cfg0.N) :
    (dats m 0 c).flushed 7 t = ((cfg0.win 7).blk t).view.read (Elt Ideal) (result m c) := by
  have hN : cfg0.N = 64 := N_0
  have ht := t.isLt
  obtain ⟨-, -, -, -, -, -, -, -, -, -, -, -, -, -, -, -, e0, e1, e2⟩ := index_maps t
  rw [Cert.KernelIdeal.Value.flushed7,
    Cert.KernelIdeal.Carried.tile m c t ⟨8 * (t.val / 8), by omega⟩ rfl]
  funext y
  obtain ⟨u, s, n, rfl⟩ : ∃ (u : Fin 1) (s : Fin 2048) (n : Fin 256), y = ix3 u s n := ⟨y 0, y 1, y 2, eq_ix3 y⟩
  have hi : ((cfg0.win 7).blk t).view.emb (ix3 u s n)
      = ix3 (⟨t.val / 8, by omega⟩ : Fin 8) s (⟨t.val % 8 * 256 + n.val, by have := n.isLt; omega⟩ : Fin 2048) :=
    funext fun a => Fin.ext (by
      match a with
      | ⟨0, _⟩ => show win0_7.index t (0 : Fin 3) * 1 + 1 * u.val = t.val / 8; omega
      | ⟨1, _⟩ => show win0_7.index t (1 : Fin 3) * 2048 + 1 * s.val = s.val; omega
      | ⟨2, _⟩ => show win0_7.index t (2 : Fin 3) * 256 + 1 * n.val = t.val % 8 * 256 + n.val; omega)
  show k0_pay4 (F := Ideal) _ _ _ _ _ _ _ (ix3 u s n) = result m c (((cfg0.win 7).blk t).view.emb (ix3 u s n))
  rw [hi]
  refine (Cert.KernelIdeal.Payload.tile_apply (k0_pay1 (iblk m c 0 ⟨8 * (t.val / 8), by omega⟩)) (iblk m c 3 t)
    (k0_pay2 (iblk m c 1 ⟨8 * (t.val / 8), by omega⟩)) (iblk m c 4 t) (k0_pay3 (iblk m c 2 ⟨8 * (t.val / 8), by omega⟩))
    (iblk m c 5 t) (iblk m c 6 t) u s n).trans ?_
  show _ = ((_ + _) + _) + _
  refine congrArg₂ (· + ·) (congrArg₂ (· + ·) (congrArg₂ (· + ·) ?_ ?_) ?_) ?_
  · refine Finset.sum_congr rfl fun k _ => congrArg₂ (· * ·) ?_ ?_
    · exact (Cert.KernelIdeal.Payload.copy_wide (iblk m c 0 ⟨8 * (t.val / 8), by omega⟩) k s).trans
        (block_first m c ⟨8 * (t.val / 8), by omega⟩ ⟨t.val / 8, by omega⟩ (by show t.val / 8 = 8 * (t.val / 8) / 8; omega) k s)
    · exact tile_first m c t _ n rfl k
  · refine Finset.sum_congr rfl fun k _ => congrArg₂ (· * ·) ?_ ?_
    · exact (Cert.KernelIdeal.Payload.copy_second (iblk m c 1 ⟨8 * (t.val / 8), by omega⟩) k s).trans
        (block_second m c ⟨8 * (t.val / 8), by omega⟩ ⟨t.val / 8, by omega⟩ (by show t.val / 8 = 8 * (t.val / 8) / 8; omega) k s)
    · exact tile_second m c t _ n rfl k
  · refine Finset.sum_congr rfl fun k _ => congrArg₂ (· * ·) ?_ ?_
    · exact (Cert.KernelIdeal.Payload.copy_third (iblk m c 2 ⟨8 * (t.val / 8), by omega⟩) k s).trans
        (block_third m c ⟨8 * (t.val / 8), by omega⟩ ⟨t.val / 8, by omega⟩ (by show t.val / 8 = 8 * (t.val / 8) / 8; omega) k s)
    · exact tile_third m c t _ n rfl k
  · exact tile_bias m c t _ n rfl

/-! ## The tiles cover the result -/

/-- An index of the result is in point `t`'s tile iff each coordinate is in the tile's range on its axis. -/
theorem mem_tile (t : Fin cfg0.N) (i : S8x2048x2048.Idx) :
    i ∈ ((cfg0.win 7).blk t).view.set ↔ ∀ a : Fin 3, win0_7.index t a * S1x2048x256.size a ≤ (i a).val
      ∧ (i a).val < win0_7.index t a * S1x2048x256.size a + S1x2048x256.size a := by
  show i ∈ ((View.whole main_v6).slice (win0_7.rect t)).set ↔ _
  rw [View.set_slice_whole, Rect.mem_set_unit]
  exact Iff.rfl

/-- Every index `(b, s, o)` of the result lies in the tile of point `8 · b + o / 256`. -/
theorem covered (i : S8x2048x2048.Idx) :
    ∃ t : Fin cfg0.N, (cfg0.win 7).flush t = true ∧ i ∈ ((cfg0.win 7).blk t).view.set := by
  have hN : cfg0.N = 64 := N_0
  have h0 : (i 0).val < 8 := (i 0).isLt
  have h1 : (i 1).val < 2048 := (i 1).isLt
  have h2 : (i 2).val < 2048 := (i 2).isLt
  refine ⟨⟨8 * (i 0).val + (i 2).val / 256, by omega⟩, flush0_7 _, ?_⟩
  obtain ⟨-, -, -, -, -, -, -, -, -, -, -, -, -, -, -, -, e0, e1, e2⟩ :=
    index_maps ⟨8 * (i 0).val + (i 2).val / 256, by omega⟩
  rw [mem_tile]
  intro a
  match a with
  | ⟨0, _⟩ =>
    show win0_7.index _ (0 : Fin 3) * 1 ≤ (i 0).val ∧ (i 0).val < win0_7.index _ (0 : Fin 3) * 1 + 1
    rw [e0]; dsimp only; omega
  | ⟨1, _⟩ =>
    show win0_7.index _ (1 : Fin 3) * 2048 ≤ (i 1).val ∧ (i 1).val < win0_7.index _ (1 : Fin 3) * 2048 + 2048
    rw [e1]; omega
  | ⟨2, _⟩ =>
    show win0_7.index _ (2 : Fin 3) * 256 ≤ (i 2).val ∧ (i 2).val < win0_7.index _ (2 : Fin 3) * 256 + 256
    rw [e2]; dsimp only; omega

/-! ## The array after the run -/

/-- The result array after the run is the specification of the arguments. -/
theorem final (c : Dev nD) : (dats m 0 c).arrAt 7 cfg0.N = result m c :=
  (dats m 0 c).arrAt_eq_of_cover 7 (result m c) (fun t _ => written_back m c t) covered

/-- The run: the result array at the specification of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Blocks

end
-- ==== Proof.lean ====
/-
  The kernel and the reference compute the same linear layer.

  The reference joins three inputs `x₁ : [8, 1024, 2048]`, `x₂, x₃ : [8, 512, 2048]` along the feature (middle) axis,
  swaps features and positions, and applies a linear layer: at batch `b`, position `s`, output `o`,
  `∑_{f < 2048} x[b, s, f] · w[o, f] + β[o]`. The kernel never forms the joined array: on a grid of 8 batches by 8
  output tiles it copies the batch's three input blocks into scratch buffers once per batch, and per tile adds three
  products — each input's features against that input's own column range of the weight matrix — and the bias.

  On the extended reals the two are the same function of the arguments (`Cert.Spec.linear`): a sum over the joined
  features is the sum over the three inputs' stretches, which is associativity of addition alone, so the precondition
  is never opened. The modules: `Spec` (the function and the splitting of the sum), `RefSide` (the reference is that
  function), `Pieces` and `Payload` (what one run of the kernel body leaves, as values and at an index), `Carried`
  (what the scratch buffers hold after every grid point, by induction on the point), `Blocks` (from the 64 tiles to
  the whole result array). The three frames are the generated runs; the kernel's idealization rewrote nothing.
-/
import proofs.«131132_j2834678415760_2_alg».proof.Defs
import proofs.«131132_j2834678415760_2_alg».proof.Proof.Gen.Kernel
import proofs.«131132_j2834678415760_2_alg».proof.Proof.Gen.Kernel.Skeleton
import proofs.«131132_j2834678415760_2_alg».proof.Proof.Gen.Kernel.Launch
import proofs.«131132_j2834678415760_2_alg».proof.Proof.Gen.Kernel.Points
import proofs.«131132_j2834678415760_2_alg».proof.Proof.Gen.Kernel.Frame
import proofs.«131132_j2834678415760_2_alg».proof.Proof.Gen.KernelIdeal
import proofs.«131132_j2834678415760_2_alg».proof.Proof.Gen.KernelIdeal.Skeleton
import proofs.«131132_j2834678415760_2_alg».proof.Proof.Gen.KernelIdeal.Launch
import proofs.«131132_j2834678415760_2_alg».proof.Proof.Gen.KernelIdeal.Points
import proofs.«131132_j2834678415760_2_alg».proof.Proof.Gen.KernelIdeal.Frame
import proofs.«131132_j2834678415760_2_alg».proof.Proof.Gen.KernelIdeal.Value
import proofs.«131132_j2834678415760_2_alg».proof.Proof.Gen.ReferenceIdeal
import proofs.«131132_j2834678415760_2_alg».proof.Proof.Gen.ReferenceIdeal.Run
import proofs.«131132_j2834678415760_2_alg».proof.Proof.Gen.ReferenceIdeal.Read
import proofs.«131132_j2834678415760_2_alg».proof.Proof.Gen.Pre_finite_inputs
import proofs.«131132_j2834678415760_2_alg».proof.Proof.RefSide
import proofs.«131132_j2834678415760_2_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at the linear layer of the arguments, which agree. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefSide.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
